-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S40x128 : Shape := ⟨2, ![40, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S40x128 : S_.BroadcastsInDim S40x128 (![] : Fin 0 → Fin S40x128.rank)
  reducesTo_S40x128_S_d0_1 : S40x128.ReducesTo [0, 1] S_

variable [Facts]

def fn_part1 {F : FTy → Type} [FloatOps F] (main_arg5 : FVec F S128 .f32) (main_arg6 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S40x128 .f32 := Host.absf main_arg6
  let main_cst_8 : FVec F S_ .f32 := constant S_ .f32 0x7F800000#32
  let main_v25 : FVec F S40x128 .f32 := broadcastInDim S40x128 ![] bcast_S_S40x128 main_cst_8
  let main_v26 : IVec S40x128 1 := cmpf .olt main_v24 main_v25
  let main_c_9 : IVec S_ 1 := constantI S_ 1 1#1
  let main_v27 : IVec S_ 1 := (fun x v => Host.reduce IntOp.andi x v reducesTo_S40x128_S_d0_1 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S40x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S40x128 : Shape := ⟨2, ![40, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S40 : Shape := ⟨1, ![40]⟩
abbrev S40x1 : Shape := ⟨2, ![40, 1]⟩
abbrev S128x40 : Shape := ⟨2, ![128, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 96
  | .vmem => 21
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S40x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S40x128, .f32⟩
  | .hbm, ⟨84, _⟩ => ⟨S_, .f32⟩
  | .hbm, ⟨85, _⟩ => ⟨S40, .f32⟩
  | .hbm, ⟨86, _⟩ => ⟨S40x1, .f32⟩
  | .hbm, ⟨87, _⟩ => ⟨S40x1, .f32⟩
  | .hbm, ⟨88, _⟩ => ⟨S_, .f32⟩
  | .hbm, ⟨89, _⟩ => ⟨S40x1, .f32⟩
  | .hbm, ⟨90, _⟩ => ⟨S40x1, .f32⟩
  | .hbm, ⟨91, _⟩ => ⟨S40x128, .f32⟩
  | .hbm, ⟨92, _⟩ => ⟨S40x128, .f32⟩
  | .hbm, ⟨93, _⟩ => ⟨S128x40, .f32⟩
  | .hbm, ⟨94, _⟩ => ⟨S1x128, .f32⟩
  | .hbm, ⟨95, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S128x40, .f32⟩
  | .local _ .vmem, ⟨19, _⟩ => ⟨S5000x40, .f32⟩
  | .local _ .vmem, ⟨20, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_call1_v2 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  reducesTo_S40x128_S40_d1 : S40x128.ReducesTo [1] S40
  h_S_ : 0 < S_.numel
  bcast_S40_S40x1_0 : S40.BroadcastsInDim S40x1 (![0] : Fin 1 → Fin S40x1.rank)
  bcast_S_S40x1 : S_.BroadcastsInDim S40x1 (![] : Fin 0 → Fin S40x1.rank)
  bcast_S40x1_S40x128_0_1 : S40x1.BroadcastsInDim S40x128 (![0, 1] : Fin 2 → Fin S40x128.rank)
  transposes_S40x128_S128x40_1_0 : S40x128.Transposes [1, 0] S128x40
  reduces_S5000x128_S5000 : S5000x128.Reduces [1] S5000
  shapeCasts_S5000_S5000x1 : S5000.ShapeCasts S5000x1
  broadcasts_S5000x1_S5000x128 : S5000x1.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40.size a ≤ S128x40.size a
  hwx3_2 : ∀ i : grid3.Coords, EltTy.bits .f32 = 32 ∨ (Rect.block (s := S128x40) S128x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S128x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S40x128 : Shape := ⟨2, ![40, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S40 : Shape := ⟨1, ![40]⟩
abbrev S40x1 : Shape := ⟨2, ![40, 1]⟩
abbrev S128x40 : Shape := ⟨2, ![128, 40]⟩
abbrev S100000x40 : Shape := ⟨2, ![100000, 40]⟩

abbrev nBuf : Space → Nat
  | .hbm => 145
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S40x128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S100000x128, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S100000, .f32⟩
  | 126 => ⟨S100000x1, .f32⟩
  | 127 => ⟨S100000x1, .f32⟩
  | _ => ⟨S100000x256, .f32⟩

abbrev hbmTy0_1 (i : Nat) : BufTy := match i % 128 with
  | 0 => ⟨S_, .f32⟩
  | 1 => ⟨S100000x1, .f32⟩
  | 2 => ⟨S100000x1, .f32⟩
  | 3 => ⟨S40x128, .f32⟩
  | 4 => ⟨S_, .f32⟩
  | 5 => ⟨S40, .f32⟩
  | 6 => ⟨S40x1, .f32⟩
  | 7 => ⟨S40x1, .f32⟩
  | 8 => ⟨S_, .f32⟩
  | 9 => ⟨S40x1, .f32⟩
  | 10 => ⟨S40x1, .f32⟩
  | 11 => ⟨S100000x128, .f32⟩
  | 12 => ⟨S100000x128, .f32⟩
  | 13 => ⟨S40x128, .f32⟩
  | 14 => ⟨S40x128, .f32⟩
  | 15 => ⟨S128x40, .f32⟩
  | 16 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call3_v0 : Ref sig .tc := ⟨.hbm, 123, rfl⟩
abbrev main_call3_cst : Ref sig .tc := ⟨.hbm, 124, rfl⟩
abbrev main_call3_v1 : Ref sig .tc := ⟨.hbm, 125, rfl⟩
abbrev main_call3_v2 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_call4_v0 : Ref sig .tc := ⟨.hbm, 131, rfl⟩
abbrev main_call4_cst : Ref sig .tc := ⟨.hbm, 132, rfl⟩
abbrev main_call4_v1 : Ref sig .tc := ⟨.hbm, 133, rfl⟩
abbrev main_call4_v2 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  reducesTo_S40x128_S40_d1 : S40x128.ReducesTo [1] S40
  bcast_S40_S40x1_0 : S40.BroadcastsInDim S40x1 (![0] : Fin 1 → Fin S40x1.rank)
  bcast_S_S40x1 : S_.BroadcastsInDim S40x1 (![] : Fin 0 → Fin S40x1.rank)
  bcast_S100000x1_S100000x128_0_1 : S100000x1.BroadcastsInDim S100000x128 (![0, 1] : Fin 2 → Fin S100000x128.rank)
  bcast_S40x1_S40x128_0_1 : S40x1.BroadcastsInDim S40x128 (![0, 1] : Fin 2 → Fin S40x128.rank)
  transposes_S40x128_S128x40_1_0 : S40x128.Transposes [1, 0] S128x40
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The whole program's run with its result named. The program is eleven segments: stretches of host operations and four
  pipelined regions. The buffer contents at each boundary are a fold from the launch memory; every weakly fair execution
  terminates, nothing faulting, with every unscoped buffer at the last boundary's contents. Read at the result's buffer
  this names the result; read at the arguments' buffers it gives them back as launched.
-/
import proofs.«150993_j24180665876742_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result's buffer at the last boundary's contents and the argument
    arrays as launched. -/
theorem run_result : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Whole

end
-- ==== Proof.HostLines.lean ====
/-
  The host lines of the pipelined program that depend on the edge list or on one float argument only, read at a
  buffer, for any float instance and from any contents `X` of the buffers: the source and target index of every edge
  and self-loop, the in-degrees (ones scatter-added at the target indices), their inverse square roots where positive,
  the edge weights dinv[row] · dinv[col]; and the class embeddings each divided by the larger of its Euclidean norm and
  the clamp, transposed. The reference computes each by the same operations: they are the reference's stages of those
  names, applied to what `X` holds at the argument.
-/
import proofs.«150993_j24180665876742_1_alg».proof.Proof.Gen.KernelIdeal.Frame
import proofs.«150993_j24180665876742_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostLines

open Cert.KernelIdeal Cert.KernelIdeal.Gen

variable {F : FTy → Type} [FloatOps F] (X : Valuation τ sig (Elt F))

/-- Source indices. -/
theorem row : StableHlo.after hostOps0_2 (StableHlo.after hostOps0_1 (StableHlo.after hostOps0 X)) (Proc.devRef .tc main_v3)
    = Cert.ReferenceIdeal.Read.val_main_v3 (F := F) (X (Proc.devRef .tc main_arg1)) := by
  after_results_simp
  rfl

/-- Target indices. -/
theorem col : StableHlo.after hostOps0_2 (StableHlo.after hostOps0_1 (StableHlo.after hostOps0 X)) (Proc.devRef .tc main_v6)
    = Cert.ReferenceIdeal.Read.val_main_v6 (F := F) (X (Proc.devRef .tc main_arg1)) := by
  after_results_simp
  rfl

/-- Edge weights. -/
theorem weight : StableHlo.after hostOps0_2 (StableHlo.after hostOps0_1 (StableHlo.after hostOps0 X)) (Proc.devRef .tc main_v29)
    = Cert.ReferenceIdeal.Read.val_main_v30 (F := F) (X (Proc.devRef .tc main_arg1)) := by
  after_results_simp
  rfl

/-- A float argument is not written by the first lines. -/
theorem kept (k : Ref sig .tc) (hk : k = main_arg0 ∨ k = main_arg2 ∨ k = main_arg3 ∨ k = main_arg4 ∨ k = main_arg5 ∨ k = main_arg6) :
    StableHlo.after hostOps0_2 (StableHlo.after hostOps0_1 (StableHlo.after hostOps0 X)) (Proc.devRef .tc k) = X (Proc.devRef .tc k) := by
  rcases hk with rfl | rfl | rfl | rfl | rfl | rfl <;> after_results_simp <;> rfl

/-- The unit class embeddings, transposed. -/
theorem classes : StableHlo.after hostOps3_2 (StableHlo.after hostOps3_1 (StableHlo.after hostOps3 X)) (Proc.devRef .tc main_v65)
    = Cert.ReferenceIdeal.Read.val_main_v98 (F := F) (X (Proc.devRef .tc main_arg6)) := by
  after_results_simp
  rfl

end Cert.KernelIdeal.HostLines

end
-- ==== Proof.StageA.lean ====
/-
  The buffers at the first region's entry: the source indices, the target indices and the edge weights are the
  reference's stages of the edge list; the float arguments are as launched.
-/
import proofs.«150993_j24180665876742_1_alg».proof.Proof.HostLines
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

variable (m : (ℓ : Loc nD τ sig) → Buf (Elt Ideal) ℓ) (ρ : Dev nD → PrngReg) (c : Dev nD)

/-- Source indices at the first region's entry. -/
theorem entry1_row : W3 m ρ c (Proc.devRef .tc main_v3) = Cert.ReferenceIdeal.Read.val_main_v3 (F := Ideal) (m ((c : Thread nD τ).loc main_arg1)) :=
  Cert.KernelIdeal.HostLines.row (F := Ideal) (W0 m ρ c)

/-- Target indices at the first region's entry. -/
theorem entry1_col : W3 m ρ c (Proc.devRef .tc main_v6) = Cert.ReferenceIdeal.Read.val_main_v6 (F := Ideal) (m ((c : Thread nD τ).loc main_arg1)) :=
  Cert.KernelIdeal.HostLines.col (F := Ideal) (W0 m ρ c)

/-- Edge weights at the first region's entry. -/
theorem entry1_weight : W3 m ρ c (Proc.devRef .tc main_v29) = Cert.ReferenceIdeal.Read.val_main_v30 (F := Ideal) (m ((c : Thread nD τ).loc main_arg1)) :=
  Cert.KernelIdeal.HostLines.weight (F := Ideal) (W0 m ρ c)

/-- Argument 0 at the first region's entry is as launched. -/
theorem entry1_arg0 : W3 m ρ c (Proc.devRef .tc main_arg0) = (m ((c : Thread nD τ).loc main_arg0)) :=
  Cert.KernelIdeal.HostLines.kept (F := Ideal) (W0 m ρ c) main_arg0 (Or.inl rfl)

/-- Argument 2 at the first region's entry is as launched. -/
theorem entry1_arg2 : W3 m ρ c (Proc.devRef .tc main_arg2) = (m ((c : Thread nD τ).loc main_arg2)) :=
  Cert.KernelIdeal.HostLines.kept (F := Ideal) (W0 m ρ c) main_arg2 (Or.inr (Or.inl rfl))

/-- Argument 3 at the first region's entry is as launched. -/
theorem entry1_arg3 : W3 m ρ c (Proc.devRef .tc main_arg3) = (m ((c : Thread nD τ).loc main_arg3)) :=
  Cert.KernelIdeal.HostLines.kept (F := Ideal) (W0 m ρ c) main_arg3 (Or.inr (Or.inr (Or.inl rfl)))

/-- Argument 4 at the first region's entry is as launched. -/
theorem entry1_arg4 : W3 m ρ c (Proc.devRef .tc main_arg4) = (m ((c : Thread nD τ).loc main_arg4)) :=
  Cert.KernelIdeal.HostLines.kept (F := Ideal) (W0 m ρ c) main_arg4 (Or.inr (Or.inr (Or.inr (Or.inl rfl))))

/-- Argument 5 at the first region's entry is as launched. -/
theorem entry1_arg5 : W3 m ρ c (Proc.devRef .tc main_arg5) = (m ((c : Thread nD τ).loc main_arg5)) :=
  Cert.KernelIdeal.HostLines.kept (F := Ideal) (W0 m ρ c) main_arg5 (Or.inr (Or.inr (Or.inr (Or.inr (Or.inl rfl)))))

/-- Argument 6 at the first region's entry is as launched. -/
theorem entry1_arg6 : W3 m ρ c (Proc.devRef .tc main_arg6) = (m ((c : Thread nD τ).loc main_arg6)) :=
  Cert.KernelIdeal.HostLines.kept (F := Ideal) (W0 m ρ c) main_arg6 (Or.inr (Or.inr (Or.inr (Or.inr (Or.inr (rfl))))))

end Cert.KernelIdeal.Whole

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«150993_j24180665876742_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Dense1.lean ====
/-
  The first dense layer, read off the pipeline: twenty grid points each multiply their own 5000 rows of the
  100000×256 input by the whole 256×128 weight into the zero accumulator (the narrowing of both operands to bf16 is
  the identity on the extended reals), and write the 5000×128 product back as rows 5000·t … 5000·t + 4999 of the
  result. Entry (5000·t + p, q) of the result is therefore ∑ₖ x(5000·t + p, k) · w(k, q): the entry of the one
  100000×256 by 256×128 product. The row blocks tile the result, so the whole array is that product.
-/
import proofs.«150993_j24180665876742_1_alg».proof.Proof.Gen.KernelIdeal.Frame
import proofs.«150993_j24180665876742_1_alg».proof.Proof.LibRowBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product of the input array by the weight array, as the region finds them. -/
def productOf (A : FVec Ideal ⟨2, ![100000, 256]⟩ .f32) (W : FVec Ideal ⟨2, ![256, 128]⟩ .f32) : FVec Ideal ⟨2, ![100000, 128]⟩ .f32 :=
  Host.dotGeneral (F := Ideal) (DotDims.plain 100000 256 128) none A W

/-- That product of the two arrays the region reads, as it finds them. -/
def product (c : Dev nD) : Buf (Elt Ideal) ((c : Thread nD τ).loc main_v30) :=
  productOf (V c main_arg0) (V c main_arg2)

/-- One entry of a grid point's product is the entry of the whole product in the row the block's row comes from. -/
theorem pay_apply (x0 : Vec Ideal S5000x256 .f32) (x1 : Vec Ideal S256x128 .f32)
    (A : FVec Ideal ⟨2, ![100000, 256]⟩ .f32) (W : FVec Ideal ⟨2, ![256, 128]⟩ .f32)
    (P : Fin 100000) (p : Fin 5000) (q : Fin 128)
    (hx : ∀ k : Fin 256, (x0 (ix2 p k) : EReal) = A (ix2 P k)) (hw : ∀ k : Fin 256, (x1 (ix2 k q) : EReal) = W (ix2 k q)) :
    k0_pay1 x0 x1 (ix2 p q) = productOf A W (ix2 P q) := by
  unfold k0_pay1
  unfold productOf
  exact Cert.Lib.RowBlock.matmul_eq_dotGeneral none none _ A W _ _ P p q hx hw

/-- The printed index maps over the grid: the input's and the result's row blocks move with the point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  have ht : t.val < 20 := lt_of_lt_of_eq t.isLt N_0
  funext j
  show k0_pay1 (fun y => V c main_arg0 (((cfg0.win 0).blk t).view.emb y)) (fun y => V c main_arg2 (((cfg0.win 1).blk t).view.emb y)) j
    = product V c (((cfg0.win 2).blk t).view.emb j)
  obtain ⟨p, q, rfl⟩ : ∃ (p : Fin 5000) (q : Fin 128), j = ix2 p q := ⟨j 0, j 1, eq_ix2 j⟩
  have hp : p.val < 5000 := p.isLt
  refine (pay_apply _ _ (V c main_arg0) (V c main_arg2) ⟨t.val * 5000 + p.val, by omega⟩ p q (fun k => ?_) (fun k => ?_)).trans ?_
  · refine congrArg (V c main_arg0) (funext fun a => Fin.ext ?_)
    match a with
    | ⟨0, _⟩ => show win0_0.index t (0 : Fin 2) * 5000 + 1 * p.val = t.val * 5000 + p.val; rw [e0]; omega
    | ⟨1, _⟩ => show win0_0.index t (1 : Fin 2) * 256 + 1 * k.val = k.val; rw [e1]; omega
  · refine congrArg (V c main_arg2) (funext fun a => Fin.ext ?_)
    match a with
    | ⟨0, _⟩ => show win0_1.index t (0 : Fin 2) * 256 + 1 * k.val = k.val; rw [e2]; omega
    | ⟨1, _⟩ => show win0_1.index t (1 : Fin 2) * 128 + 1 * q.val = q.val; rw [e3]; omega
  · refine congrArg (product V c) (funext fun a => Fin.ext ?_)
    match a with
    | ⟨0, _⟩ => show t.val * 5000 + p.val = win0_2.index t (0 : Fin 2) * 5000 + 1 * p.val; rw [e4]; omega
    | ⟨1, _⟩ => show q.val = win0_2.index t (1 : Fin 2) * 128 + 1 * q.val; rw [e5]; omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the result lies in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- The result array after the region is the whole product of the arrays the region was entered with. -/
theorem result (c : Dev nD) : (dat0 V c).arrAt 2 cfg0.N = product V c :=
  (dat0 V c).arrAt_eq_of_cover 2 (product V c) (fun t _ => flushed_eq V c t) (cover)

end Cert.KernelIdeal.Dense1

end
-- ==== Proof.StageB.lean ====
/-
  From the first region's exit to the second region's entry. The first region leaves the first dense layer's product
  in its result buffer and every other buffer as it was. The host then gathers the product's rows at the source
  indices, scales each by its edge weight and scatter-adds them at the target indices, and views the first bias vector
  as one row. The reference does the same to the same product, so the aggregated array is the reference's stage.
-/
import proofs.«150993_j24180665876742_1_alg».proof.Proof.StageA
import proofs.«150993_j24180665876742_1_alg».proof.Proof.Dense1
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

variable (m : (ℓ : Loc nD τ sig) → Buf (Elt Ideal) ℓ) (ρ : Dev nD → PrngReg) (c : Dev nD)

/-- The first dense layer's product, after the first region. -/
theorem exit1_product : W4 m ρ c (Proc.devRef .tc main_v30) = Cert.ReferenceIdeal.Read.val_main_v7 (F := Ideal) (m ((c : Thread nD τ).loc main_arg0)) (m ((c : Thread nD τ).loc main_arg2)) := by
  refine (W4_arr m ρ c 2).trans ?_
  refine (Cert.KernelIdeal.Dense1.result (V3 m ρ) c).trans ?_
  show Cert.KernelIdeal.Dense1.productOf (W3 m ρ c (Proc.devRef .tc main_arg0)) (W3 m ρ c (Proc.devRef .tc main_arg2)) = _
  rw [entry1_arg0, entry1_arg2]
  rfl

/-- The aggregated first layer, at the second region's entry. -/
theorem entry2_agg : W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)) := by
  have h3 : W4 m ρ c (Proc.devRef .tc main_v3) = _ := (W4_of_ne m ρ c main_v3 (by decide)).trans (entry1_row m ρ c)
  have h6 : W4 m ρ c (Proc.devRef .tc main_v6) = _ := (W4_of_ne m ρ c main_v6 (by decide)).trans (entry1_col m ρ c)
  have h29 : W4 m ρ c (Proc.devRef .tc main_v29) = _ := (W4_of_ne m ρ c main_v29 (by decide)).trans (entry1_weight m ρ c)
  have h30 := exit1_product m ρ c
  show StableHlo.after hostOps1 (W4 m ρ c) (Proc.devRef .tc main_v43) = _
  generalize W4 m ρ c = X at h3 h6 h29 h30 ⊢
  after_results_simp
  rw [h3, h6, h29, h30]
  rfl

/-- The first bias vector as one row, at the second region's entry. -/
theorem entry2_bias (k : Fin 128) : (W5 m ρ c (Proc.devRef .tc main_v44) : S1x128.Idx → EReal) (ix2 (0 : Fin 1) k)
    = ((m ((c : Thread nD τ).loc main_arg3)) : S128.Idx → EReal) (ix1 k) := by
  have h : W4 m ρ c (Proc.devRef .tc main_arg3) = _ := (W4_of_ne m ρ c main_arg3 (by decide)).trans (entry1_arg3 m ρ c)
  show (StableHlo.after hostOps1 (W4 m ρ c) (Proc.devRef .tc main_v44) : S1x128.Idx → EReal) (ix2 (0 : Fin 1) k) = _
  generalize W4 m ρ c = X at h ⊢
  after_results_simp
  rw [h]
  exact shapeCast_a_1a_apply _ _ 0 k

/-- Source indices, target indices, edge weights and the later arguments pass the first region and the host lines after it. -/
theorem entry2_row : W5 m ρ c (Proc.devRef .tc main_v3) = Cert.ReferenceIdeal.Read.val_main_v3 (F := Ideal) (m ((c : Thread nD τ).loc main_arg1)) := by
  have h : W4 m ρ c (Proc.devRef .tc main_v3) = _ := (W4_of_ne m ρ c main_v3 (by decide)).trans (entry1_row m ρ c)
  show StableHlo.after hostOps1 (W4 m ρ c) (Proc.devRef .tc main_v3) = _
  generalize W4 m ρ c = X at h ⊢
  after_results_simp
  exact h
theorem entry2_col : W5 m ρ c (Proc.devRef .tc main_v6) = Cert.ReferenceIdeal.Read.val_main_v6 (F := Ideal) (m ((c : Thread nD τ).loc main_arg1)) := by
  have h : W4 m ρ c (Proc.devRef .tc main_v6) = _ := (W4_of_ne m ρ c main_v6 (by decide)).trans (entry1_col m ρ c)
  show StableHlo.after hostOps1 (W4 m ρ c) (Proc.devRef .tc main_v6) = _
  generalize W4 m ρ c = X at h ⊢
  after_results_simp
  exact h
theorem entry2_weight : W5 m ρ c (Proc.devRef .tc main_v29) = Cert.ReferenceIdeal.Read.val_main_v30 (F := Ideal) (m ((c : Thread nD τ).loc main_arg1)) := by
  have h : W4 m ρ c (Proc.devRef .tc main_v29) = _ := (W4_of_ne m ρ c main_v29 (by decide)).trans (entry1_weight m ρ c)
  show StableHlo.after hostOps1 (W4 m ρ c) (Proc.devRef .tc main_v29) = _
  generalize W4 m ρ c = X at h ⊢
  after_results_simp
  exact h
theorem entry2_arg4 : W5 m ρ c (Proc.devRef .tc main_arg4) = (m ((c : Thread nD τ).loc main_arg4)) := by
  have h : W4 m ρ c (Proc.devRef .tc main_arg4) = _ := (W4_of_ne m ρ c main_arg4 (by decide)).trans (entry1_arg4 m ρ c)
  show StableHlo.after hostOps1 (W4 m ρ c) (Proc.devRef .tc main_arg4) = _
  generalize W4 m ρ c = X at h ⊢
  after_results_simp
  exact h
theorem entry2_arg5 : W5 m ρ c (Proc.devRef .tc main_arg5) = (m ((c : Thread nD τ).loc main_arg5)) := by
  have h : W4 m ρ c (Proc.devRef .tc main_arg5) = _ := (W4_of_ne m ρ c main_arg5 (by decide)).trans (entry1_arg5 m ρ c)
  show StableHlo.after hostOps1 (W4 m ρ c) (Proc.devRef .tc main_arg5) = _
  generalize W4 m ρ c = X at h ⊢
  after_results_simp
  exact h
theorem entry2_arg6 : W5 m ρ c (Proc.devRef .tc main_arg6) = (m ((c : Thread nD τ).loc main_arg6)) := by
  have h : W4 m ρ c (Proc.devRef .tc main_arg6) = _ := (W4_of_ne m ρ c main_arg6 (by decide)).trans (entry1_arg6 m ρ c)
  show StableHlo.after hostOps1 (W4 m ρ c) (Proc.devRef .tc main_arg6) = _
  generalize W4 m ρ c = X at h ⊢
  after_results_simp
  exact h

end Cert.KernelIdeal.Whole

end
-- ==== Proof.BiasRelu.lean ====
/-
  The bias and the rectifier of the first layer, read off the pipeline: twenty grid points each take their own 5000
  rows of the aggregated 100000×128 array, add the one 1×128 row of biases to every row, take the maximum with zero, and
  write the block back in place of the same rows of the result. Entry (r, q) of the result is max (agg(r, q) + b(0, q), 0).
-/
import proofs.«150993_j24180665876742_1_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.BiasRelu

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The rectified sum of the aggregated array and the row of biases, entry by entry. -/
def rectifiedOf (a : FVec Ideal S100000x128 .f32) (b : FVec Ideal S1x128 .f32) : FVec Ideal S100000x128 .f32 :=
  fun i => max (a i + b (ix2 (0 : Fin 1) (⟨(i 1).val, (i 1).isLt⟩ : Fin 128))) (Ideal.ofBits .f32 0x00000000#32)

/-- That rectified sum of the two arrays the region reads, as it finds them. -/
def rectified (c : Dev nD) : Buf (Elt Ideal) ((c : Thread nD τ).loc main_v45) :=
  rectifiedOf (V c main_v43) (V c main_v44)

/-- One entry of a grid point's block: the block's entry plus the bias of its column, rectified. -/
theorem pay_apply (x0 : Vec Ideal S5000x128 .f32) (x1 : Vec Ideal S1x128 .f32) (p : Fin 5000) (q : Fin 128) :
    k1_pay1 x0 x1 (ix2 p q) = max ((x0 (ix2 p q) : EReal) + x1 (ix2 (0 : Fin 1) q)) (Ideal.ofBits .f32 0x00000000#32) := by
  unfold k1_pay1
  rw [shapeCast_self, shapeCast_self]
  show max ((x0 (ix2 p q) : EReal) + broadcastTo S5000x128 x1 broadcasts_S1x128_S5000x128 (ix2 p q)) _ = _
  rw [broadcastTo_1b_ab_apply]
  rfl

/-- The same entry, when the block's entry is the array's at an index and the bias is the row's at that index's column. -/
theorem pay_entry (x0 : Vec Ideal S5000x128 .f32) (x1 : Vec Ideal S1x128 .f32) (a : FVec Ideal S100000x128 .f32) (b : FVec Ideal S1x128 .f32)
    (i : S100000x128.Idx) (p : Fin 5000) (q : Fin 128) (h0 : (x0 (ix2 p q) : EReal) = a i)
    (h1 : (x1 (ix2 (0 : Fin 1) q) : EReal) = b (ix2 (0 : Fin 1) (⟨(i 1).val, (i 1).isLt⟩ : Fin 128))) :
    k1_pay1 x0 x1 (ix2 p q) = rectifiedOf a b i := by
  rw [pay_apply, h0, h1]
  rfl

/-- The printed index maps over the grid: the aggregated array's and the result's row blocks move with the point, the
    row of biases stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the rectified sum. -/
theorem flushed_eq (c : Dev nD) (t : Fin cfg1.N) :
    (dat1 V c).flushed 2 t = ((cfg1.win 2).blk t).view.read (Elt Ideal) (rectified V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  have ht : t.val < 20 := lt_of_lt_of_eq t.isLt N_1
  funext j
  show k1_pay1 (fun y => V c main_v43 (((cfg1.win 0).blk t).view.emb y)) (fun y => V c main_v44 (((cfg1.win 1).blk t).view.emb y)) j
    = rectified V c (((cfg1.win 2).blk t).view.emb j)
  obtain ⟨p, q, rfl⟩ : ∃ (p : Fin 5000) (q : Fin 128), j = ix2 p q := ⟨j 0, j 1, eq_ix2 j⟩
  have hp : p.val < 5000 := p.isLt
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; rw [e0, e4]
    | ⟨1, _⟩ => show win1_0.index t (1 : Fin 2) * 128 + 1 * q.val = win1_2.index t (1 : Fin 2) * 128 + 1 * q.val; rw [e1, e5]
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 128) := by
    funext a; apply Fin.ext
    match a with
    | ⟨0, _⟩ => show win1_1.index t (0 : Fin 2) * 1 + 1 * 0 = 0; rw [e2]
    | ⟨1, _⟩ => show win1_1.index t (1 : Fin 2) * 128 + 1 * q.val = win1_2.index t (1 : Fin 2) * 128 + 1 * q.val; rw [e3, e5]
  exact pay_entry _ _ (V c main_v43) (V c main_v44) (((cfg1.win 2).blk t).view.emb (ix2 p q)) p q (congrArg (V c main_v43) h0) (congrArg (V c main_v44) h1)

/-- An index of the result is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row `r` of the result lies in the block of point `r / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- The result array after the region is the rectified sum of the arrays the region was entered with. -/
theorem result (c : Dev nD) : (dat1 V c).arrAt 2 cfg1.N = rectified V c :=
  (dat1 V c).arrAt_eq_of_cover 2 (rectified V c) (fun t _ => flushed_eq V c t) (cover)

end Cert.KernelIdeal.BiasRelu

end
-- ==== Proof.StageC.lean ====
/-
  The second region's exit. The region leaves in its result buffer, entry by entry, the larger of zero and the
  aggregated first layer plus the bias of the entry's column: the reference's rectified first layer, whose bias is the
  same vector spread over the rows.
-/
import proofs.«150993_j24180665876742_1_alg».proof.Proof.StageB
import proofs.«150993_j24180665876742_1_alg».proof.Proof.BiasRelu
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

variable (m : (ℓ : Loc nD τ sig) → Buf (Elt Ideal) ℓ) (ρ : Dev nD → PrngReg) (c : Dev nD)

/-- The rectified first layer, after the second region. -/
theorem exit2_hidden : W6 m ρ c (Proc.devRef .tc main_v45) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Cert.KernelIdeal.BiasRelu.result (V5 m ρ) c).trans ?_
  funext i
  show Cert.KernelIdeal.BiasRelu.rectifiedOf (W5 m ρ c (Proc.devRef .tc main_v43)) (W5 m ρ c (Proc.devRef .tc main_v44)) i = _
  unfold Cert.KernelIdeal.BiasRelu.rectifiedOf
  have hb := entry2_bias m ρ c ⟨(i 1).val, (i 1).isLt⟩
  have hidx : Cert.ReferenceIdeal.Read.idx_main_v44 (Cert.ReferenceIdeal.Read.idx_main_v45 i) = ix1 (⟨(i 1).val, (i 1).isLt⟩ : Fin 128) :=
    funext fun a => by match a with | ⟨0, _⟩ => rfl
  rw [Cert.ReferenceIdeal.Read.val_main_v47_apply, Cert.ReferenceIdeal.Read.val_main_v46_apply, Cert.ReferenceIdeal.Read.val_main_v45_apply, Cert.ReferenceIdeal.Read.val_main_v44_apply,
    Cert.ReferenceIdeal.Read.val_main_call1_v0_apply, Cert.ReferenceIdeal.Read.val_main_call1_cst_apply, hidx, ← hb, entry2_agg]
  rfl

/-- The second weight array, the indices, the weights and the later arguments pass the second region. -/
theorem exit2_arg4 : W6 m ρ c (Proc.devRef .tc main_arg4) = (m ((c : Thread nD τ).loc main_arg4)) :=
  (W6_of_ne m ρ c main_arg4 (by decide)).trans (entry2_arg4 m ρ c)
theorem exit2_arg5 : W6 m ρ c (Proc.devRef .tc main_arg5) = (m ((c : Thread nD τ).loc main_arg5)) :=
  (W6_of_ne m ρ c main_arg5 (by decide)).trans (entry2_arg5 m ρ c)
theorem exit2_arg6 : W6 m ρ c (Proc.devRef .tc main_arg6) = (m ((c : Thread nD τ).loc main_arg6)) :=
  (W6_of_ne m ρ c main_arg6 (by decide)).trans (entry2_arg6 m ρ c)
theorem exit2_row : W6 m ρ c (Proc.devRef .tc main_v3) = Cert.ReferenceIdeal.Read.val_main_v3 (F := Ideal) (m ((c : Thread nD τ).loc main_arg1)) :=
  (W6_of_ne m ρ c main_v3 (by decide)).trans (entry2_row m ρ c)
theorem exit2_col : W6 m ρ c (Proc.devRef .tc main_v6) = Cert.ReferenceIdeal.Read.val_main_v6 (F := Ideal) (m ((c : Thread nD τ).loc main_arg1)) :=
  (W6_of_ne m ρ c main_v6 (by decide)).trans (entry2_col m ρ c)
theorem exit2_weight : W6 m ρ c (Proc.devRef .tc main_v29) = Cert.ReferenceIdeal.Read.val_main_v30 (F := Ideal) (m ((c : Thread nD τ).loc main_arg1)) :=
  (W6_of_ne m ρ c main_v29 (by decide)).trans (entry2_weight m ρ c)

end Cert.KernelIdeal.Whole

end
-- ==== Proof.Dense2.lean ====
/-
  The second dense layer, read off the pipeline: twenty grid points each multiply their own 5000 rows of the
  100000×128 hidden array by the whole 128×128 weight into the zero accumulator (the narrowing of both operands to bf16
  is the identity on the extended reals), and write the 5000×128 product back as rows 5000·t … 5000·t + 4999 of the
  result. Entry (5000·t + p, q) of the result is therefore ∑ₖ h(5000·t + p, k) · w(k, q): the entry of the one
  100000×128 by 128×128 product. The row blocks tile the result, so the whole array is that product.
-/
import proofs.«150993_j24180665876742_1_alg».proof.Proof.Gen.KernelIdeal.Frame
import proofs.«150993_j24180665876742_1_alg».proof.Proof.LibRowBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole product of the hidden array by the second weight array, as the region finds them. -/
def productOf (A : FVec Ideal ⟨2, ![100000, 128]⟩ .f32) (W : FVec Ideal ⟨2, ![128, 128]⟩ .f32) : FVec Ideal ⟨2, ![100000, 128]⟩ .f32 :=
  Host.dotGeneral (F := Ideal) (DotDims.plain 100000 128 128) none A W

/-- That product of the two arrays the region reads, as it finds them. -/
def product (c : Dev nD) : Buf (Elt Ideal) ((c : Thread nD τ).loc main_v46) :=
  productOf (V c main_v45) (V c main_arg4)

/-- One entry of a grid point's product is the entry of the whole product in the row the block's row comes from. -/
theorem pay_apply (x0 : Vec Ideal S5000x128 .f32) (x1 : Vec Ideal S128x128 .f32)
    (A : FVec Ideal ⟨2, ![100000, 128]⟩ .f32) (W : FVec Ideal ⟨2, ![128, 128]⟩ .f32)
    (P : Fin 100000) (p : Fin 5000) (q : Fin 128)
    (hx : ∀ k : Fin 128, (x0 (ix2 p k) : EReal) = A (ix2 P k)) (hw : ∀ k : Fin 128, (x1 (ix2 k q) : EReal) = W (ix2 k q)) :
    k2_pay1 x0 x1 (ix2 p q) = productOf A W (ix2 P q) := by
  unfold k2_pay1
  rw [shapeCast_self]
  unfold productOf
  exact Cert.Lib.RowBlock.matmul_eq_dotGeneral none none _ A W _ _ P p q hx hw

/-- The printed index maps over the grid: the hidden array's and the result's row blocks move with the point, the weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  have ht : t.val < 20 := lt_of_lt_of_eq t.isLt N_2
  funext j
  show k2_pay1 (fun y => V c main_v45 (((cfg2.win 0).blk t).view.emb y)) (fun y => V c main_arg4 (((cfg2.win 1).blk t).view.emb y)) j
    = product V c (((cfg2.win 2).blk t).view.emb j)
  obtain ⟨p, q, rfl⟩ : ∃ (p : Fin 5000) (q : Fin 128), j = ix2 p q := ⟨j 0, j 1, eq_ix2 j⟩
  have hp : p.val < 5000 := p.isLt
  refine (pay_apply _ _ (V c main_v45) (V c main_arg4) ⟨t.val * 5000 + p.val, by omega⟩ p q (fun k => ?_) (fun k => ?_)).trans ?_
  · refine congrArg (V c main_v45) (funext fun a => Fin.ext ?_)
    match a with
    | ⟨0, _⟩ => show win2_0.index t (0 : Fin 2) * 5000 + 1 * p.val = t.val * 5000 + p.val; rw [e0]; omega
    | ⟨1, _⟩ => show win2_0.index t (1 : Fin 2) * 128 + 1 * k.val = k.val; rw [e1]; omega
  · refine congrArg (V c main_arg4) (funext fun a => Fin.ext ?_)
    match a with
    | ⟨0, _⟩ => show win2_1.index t (0 : Fin 2) * 128 + 1 * k.val = k.val; rw [e2]; omega
    | ⟨1, _⟩ => show win2_1.index t (1 : Fin 2) * 128 + 1 * q.val = q.val; rw [e3]; omega
  · refine congrArg (product V c) (funext fun a => Fin.ext ?_)
    match a with
    | ⟨0, _⟩ => show t.val * 5000 + p.val = win2_2.index t (0 : Fin 2) * 5000 + 1 * p.val; rw [e4]; omega
    | ⟨1, _⟩ => show q.val = win2_2.index t (1 : Fin 2) * 128 + 1 * q.val; rw [e5]; omega

/-- An index of the result is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row `r` of the result lies in the block of point `r / 5000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- The result array after the region is the whole product of the arrays the region was entered with. -/
theorem result (c : Dev nD) : (dat2 V c).arrAt 2 cfg2.N = product V c :=
  (dat2 V c).arrAt_eq_of_cover 2 (product V c) (fun t _ => flushed_eq V c t) (cover)

end Cert.KernelIdeal.Dense2

end
-- ==== Proof.StageD.lean ====
/-
  The third region's exit: the second dense layer's product of the rectified first layer by the second weight array,
  which is the reference's second product.
-/
import proofs.«150993_j24180665876742_1_alg».proof.Proof.StageC
import proofs.«150993_j24180665876742_1_alg».proof.Proof.Dense2
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

variable (m : (ℓ : Loc nD τ sig) → Buf (Elt Ideal) ℓ) (ρ : Dev nD → PrngReg) (c : Dev nD)

/-- The second dense layer's product, after the third region. -/
theorem exit3_product : W7 m ρ c (Proc.devRef .tc main_v46) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Cert.KernelIdeal.Dense2.result (V6 m ρ) c).trans ?_
  show Cert.KernelIdeal.Dense2.productOf (W6 m ρ c (Proc.devRef .tc main_v45)) (W6 m ρ c (Proc.devRef .tc main_arg4)) = _
  rw [exit2_hidden, exit2_arg4]
  rfl

/-- The indices, the weights and the later arguments pass the third region. -/
theorem exit3_arg5 : W7 m ρ c (Proc.devRef .tc main_arg5) = (m ((c : Thread nD τ).loc main_arg5)) :=
  (W7_of_ne m ρ c main_arg5 (by decide)).trans (exit2_arg5 m ρ c)
theorem exit3_arg6 : W7 m ρ c (Proc.devRef .tc main_arg6) = (m ((c : Thread nD τ).loc main_arg6)) :=
  (W7_of_ne m ρ c main_arg6 (by decide)).trans (exit2_arg6 m ρ c)
theorem exit3_row : W7 m ρ c (Proc.devRef .tc main_v3) = Cert.ReferenceIdeal.Read.val_main_v3 (F := Ideal) (m ((c : Thread nD τ).loc main_arg1)) :=
  (W7_of_ne m ρ c main_v3 (by decide)).trans (exit2_row m ρ c)
theorem exit3_col : W7 m ρ c (Proc.devRef .tc main_v6) = Cert.ReferenceIdeal.Read.val_main_v6 (F := Ideal) (m ((c : Thread nD τ).loc main_arg1)) :=
  (W7_of_ne m ρ c main_v6 (by decide)).trans (exit2_col m ρ c)
theorem exit3_weight : W7 m ρ c (Proc.devRef .tc main_v29) = Cert.ReferenceIdeal.Read.val_main_v30 (F := Ideal) (m ((c : Thread nD τ).loc main_arg1)) :=
  (W7_of_ne m ρ c main_v29 (by decide)).trans (exit2_weight m ρ c)

end Cert.KernelIdeal.Whole

end
-- ==== Proof.StageE.lean ====
/-
  The fourth region's entry. The host gathers the second product's rows at the source indices, scales each by its
  edge weight and scatter-adds them at the target indices; divides every class embedding by the larger of its
  Euclidean norm and the clamp and transposes the array; and views the second bias vector as one row. The reference
  does the same to the same arrays.
-/
import proofs.«150993_j24180665876742_1_alg».proof.Proof.StageD
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

variable (m : (ℓ : Loc nD τ sig) → Buf (Elt Ideal) ℓ) (ρ : Dev nD → PrngReg) (c : Dev nD)

/-- The aggregated second layer, at the fourth region's entry. -/
theorem entry4_agg : W10 m ρ c (Proc.devRef .tc main_v59) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h3 := exit3_row m ρ c
  have h6 := exit3_col m ρ c
  have h29 := exit3_weight m ρ c
  have h46 := exit3_product m ρ c
  show StableHlo.after hostOps3_2 (StableHlo.after hostOps3_1 (StableHlo.after hostOps3 (W7 m ρ c))) (Proc.devRef .tc main_v59) = _
  generalize W7 m ρ c = X at h3 h6 h29 h46 ⊢
  after_results_simp
  rw [h3, h6, h29, h46]
  rfl

/-- The unit class embeddings, transposed, at the fourth region's entry. -/
theorem entry4_cls : W10 m ρ c (Proc.devRef .tc main_v65) = Cert.ReferenceIdeal.Read.val_main_v98 (F := Ideal) (m ((c : Thread nD τ).loc main_arg6)) :=
  (Cert.KernelIdeal.HostLines.classes (F := Ideal) (W7 m ρ c)).trans (congrArg (Cert.ReferenceIdeal.Read.val_main_v98 (F := Ideal)) (exit3_arg6 m ρ c))

/-- The second bias vector as one row, at the fourth region's entry. -/
theorem entry4_bias (k : Fin 128) : (W10 m ρ c (Proc.devRef .tc main_v66) : S1x128.Idx → EReal) (ix2 (0 : Fin 1) k)
    = ((m ((c : Thread nD τ).loc main_arg5)) : S128.Idx → EReal) (ix1 k) := by
  have h := exit3_arg5 m ρ c
  show (StableHlo.after hostOps3_2 (StableHlo.after hostOps3_1 (StableHlo.after hostOps3 (W7 m ρ c))) (Proc.devRef .tc main_v66) : S1x128.Idx → EReal) (ix2 (0 : Fin 1) k) = _
  generalize W7 m ρ c = X at h ⊢
  after_results_simp
  rw [h]
  exact shapeCast_a_1a_apply _ _ 0 k

end Cert.KernelIdeal.Whole

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Cosine.lean ====
/-
  The classifier head, read off the pipeline. Twenty grid points each take their own 5000 rows of the aggregated
  100000×128 array, add the one 1×128 row of biases to every row, divide every row by the larger of its Euclidean
  norm — the square root of the sum of its squares — and the clamp, and multiply the unit rows by the whole 128×40
  array of unit class embeddings into the zero accumulator (the narrowing of both operands to bf16 is the identity on
  the extended reals); the 5000×40 product is written back as rows 5000·t … 5000·t + 4999 of the result. Entry
  (5000·t + p, q) of the result is ∑ₖ u(5000·t + p, k) · e(k, q) with u the array of unit rows: the entry of the one
  100000×128 by 128×40 product. The row blocks tile the result.
-/
import proofs.«150993_j24180665876742_1_alg».proof.Proof.Gen.KernelIdeal.Frame
import proofs.«150993_j24180665876742_1_alg».proof.Proof.LibRowBlock
import proofs.«150993_j24180665876742_1_alg».proof.Proof.LibKeepdims
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx Idealize.ShloMosaic.ValueKeepdims
open Idealize.ShloMosaic.Pipeline (Dat)

namespace Cert.KernelIdeal.Cosine

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A row divided by the larger of its Euclidean norm and the clamp, at one column. -/
def unitRow (f : Fin 128 → EReal) (k : Fin 128) : EReal :=
  Ideal.div (f k) (max (Ideal.sqrt (∑ k' : Fin 128, f k' * f k')) (Ideal.ofBits .f32 0x322BCC77#32))

/-- The aggregated array plus the row of biases, by row and column. -/
def biasedOf (a : FVec Ideal S100000x128 .f32) (b : FVec Ideal S1x128 .f32) (r : Fin 100000) (k : Fin 128) : EReal :=
  a (ix2 r k) + b (ix2 (0 : Fin 1) k)

/-- The array of unit rows. -/
def unitRowsOf (a : FVec Ideal S100000x128 .f32) (b : FVec Ideal S1x128 .f32) : FVec Ideal ⟨2, ![100000, 128]⟩ .f32 :=
  fun i => unitRow (biasedOf a b ⟨(i 0).val, (i 0).isLt⟩) ⟨(i 1).val, (i 1).isLt⟩

/-- The unit rows times the class array. -/
def similarityOf (a : FVec Ideal S100000x128 .f32) (b : FVec Ideal S1x128 .f32) (e : FVec Ideal ⟨2, ![128, 40]⟩ .f32) :
    FVec Ideal ⟨2, ![100000, 40]⟩ .f32 :=
  Host.dotGeneral (F := Ideal) (DotDims.plain 100000 128 40) none (unitRowsOf a b) e

/-- That product for the three arrays the region reads, as it finds them. -/
def similarity (c : Dev nD) : Buf (Elt Ideal) ((c : Thread nD τ).loc main_v67) :=
  similarityOf (V c main_v59) (V c main_v66) (V c main_v65)

/-- A block plus the row of biases, at an entry. -/
theorem biased_apply (x0 : FVec Ideal S5000x128 .f32) (x1 : FVec Ideal S1x128 .f32) (p : Fin 5000) (k : Fin 128) :
    addf x0 (broadcastTo S5000x128 x1 broadcasts_S1x128_S5000x128) (ix2 p k) = (x0 (ix2 p k) : EReal) + x1 (ix2 (0 : Fin 1) k) := by
  rw [addf_apply, broadcastTo_1b_ab_apply]

/-- The sum of a row's squares. -/
theorem sumsq_apply (y : FVec Ideal S5000x128 .f32) (p : Fin 5000) :
    multiReduction .add [1] S5000 (mulf y y) 0x00000000#32 reduces_S5000x128_S5000 (.inl rfl) rfl (ix1 p)
      = ∑ k : Fin 128, (y (ix2 p k) : EReal) * y (ix2 p k) :=
  multiReduction_add_row (a := 5000) (b := 128) (mulf y y) 0x00000000#32 reduces_S5000x128_S5000 (.inl rfl) rfl p

/-- The clamped norm kept as a column and spread over the row, at an entry. -/
theorem clamp_apply (z : FVec Ideal S5000 .f32) (p : Fin 5000) (k : Fin 128) :
    broadcastTo S5000x128 (maximumf (sqrt (shapeCast S5000x1 z shapeCasts_S5000_S5000x1)) (broadcast S5000x1 (Scalar.ofBits .f32 0x322BCC77#32)))
        broadcasts_S5000x1_S5000x128 (ix2 p k)
      = max (Ideal.sqrt (z (ix1 p))) (Ideal.ofBits .f32 0x322BCC77#32) := by
  rw [broadcastTo_a1_ab_apply, maximumf_apply]
  show max (Ideal.sqrt (shapeCast S5000x1 z shapeCasts_S5000_S5000x1 (ix2 p (0 : Fin 1)))) _ = _
  rw [shapeCast_a_a1_apply]
  rfl

/-- One entry of a grid point's product is the entry of the whole product in the row the block's row comes from. -/
theorem pay_apply (x0 : FVec Ideal S5000x128 .f32) (x1 : FVec Ideal S1x128 .f32) (x2 : FVec Ideal S128x40 .f32)
    (A : FVec Ideal ⟨2, ![100000, 128]⟩ .f32) (W : FVec Ideal ⟨2, ![128, 40]⟩ .f32)
    (P : Fin 100000) (p : Fin 5000) (q : Fin 40)
    (hx : ∀ k : Fin 128, unitRow (fun k' => (x0 (ix2 p k') : EReal) + x1 (ix2 (0 : Fin 1) k')) k = A (ix2 P k))
    (hw : ∀ k : Fin 128, (x2 (ix2 k q) : EReal) = W (ix2 k q)) :
    k3_pay1 x0 x1 x2 (ix2 p q) = Host.dotGeneral (F := Ideal) (DotDims.plain 100000 128 40) none A W (ix2 P q) := by
  unfold k3_pay1
  simp only [shapeCast_self]
  refine Cert.Lib.RowBlock.matmul_eq_dotGeneral none none _ A W _ _ P p q (fun k => ?_) hw
  refine Eq.trans ?_ (hx k)
  rw [truncf_apply, divf_apply, clamp_apply, sumsq_apply, biased_apply]
  simp only [biased_apply]
  rfl

/-- The printed index maps over the grid: the aggregated array's and the result's row blocks move with the point, the
    row of biases and the class array stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole product. -/
theorem flushed_eq (c : Dev nD) (t : Fin cfg3.N) :
    (dat3 V c).flushed 3 t = ((cfg3.win 3).blk t).view.read (Elt Ideal) (similarity V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz, View.ld_unit_zero (S := S128x40) hz]
  obtain ⟨e0, e1, e2, e3, e4, e5, e6, e7⟩ := idx_facts t
  have ht : t.val < 20 := lt_of_lt_of_eq t.isLt N_3
  funext j
  show k3_pay1 (fun y => V c main_v59 (((cfg3.win 0).blk t).view.emb y)) (fun y => V c main_v66 (((cfg3.win 1).blk t).view.emb y))
      (fun y => V c main_v65 (((cfg3.win 2).blk t).view.emb y)) j
    = similarity V c (((cfg3.win 3).blk t).view.emb j)
  obtain ⟨p, q, rfl⟩ : ∃ (p : Fin 5000) (q : Fin 40), j = ix2 p q := ⟨j 0, j 1, eq_ix2 j⟩
  have hp : p.val < 5000 := p.isLt
  have hrow : ∀ k' : Fin 128, ((cfg3.win 0).blk t).view.emb (ix2 p k') = ix2 (⟨t.val * 5000 + p.val, by omega⟩ : Fin 100000) k' := fun k' => by
    funext a; apply Fin.ext
    match a with
    | ⟨0, _⟩ => show win3_0.index t (0 : Fin 2) * 5000 + 1 * p.val = t.val * 5000 + p.val; rw [e0]; omega
    | ⟨1, _⟩ => show win3_0.index t (1 : Fin 2) * 128 + 1 * k'.val = k'.val; rw [e1]; omega
  have hbias : ∀ k' : Fin 128, ((cfg3.win 1).blk t).view.emb (ix2 (0 : Fin 1) k') = ix2 (0 : Fin 1) k' := fun k' => by
    funext a; apply Fin.ext
    match a with
    | ⟨0, _⟩ => show win3_1.index t (0 : Fin 2) * 1 + 1 * 0 = 0; rw [e2]
    | ⟨1, _⟩ => show win3_1.index t (1 : Fin 2) * 128 + 1 * k'.val = k'.val; rw [e3]; omega
  refine (pay_apply _ _ _ (unitRowsOf (V c main_v59) (V c main_v66)) (V c main_v65) ⟨t.val * 5000 + p.val, by omega⟩ p q (fun k => ?_) (fun k => ?_)).trans ?_
  · show unitRow _ k = unitRow (biasedOf (V c main_v59) (V c main_v66) (⟨t.val * 5000 + p.val, by omega⟩ : Fin 100000)) k
    refine congrArg (fun f => unitRow f k) (funext fun k' => ?_)
    exact congrArg₂ (fun a b : EReal => a + b) (congrArg (V c main_v59) (hrow k')) (congrArg (V c main_v66) (hbias k'))
  · refine congrArg (V c main_v65) (funext fun a => Fin.ext ?_)
    match a with
    | ⟨0, _⟩ => show win3_2.index t (0 : Fin 2) * 128 + 1 * k.val = k.val; rw [e4]; omega
    | ⟨1, _⟩ => show win3_2.index t (1 : Fin 2) * 40 + 1 * q.val = q.val; rw [e5]; omega
  · refine congrArg (similarity V c) (funext fun a => Fin.ext ?_)
    match a with
    | ⟨0, _⟩ => show t.val * 5000 + p.val = win3_3.index t (0 : Fin 2) * 5000 + 1 * p.val; rw [e6]; omega
    | ⟨1, _⟩ => show q.val = win3_3.index t (1 : Fin 2) * 40 + 1 * q.val; rw [e7]; omega

/-- An index of the result is in point `t`'s block iff each coordinate is in the block's range on its axis. -/
theorem mem_blk (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v67).slice (win3_3.rect t)).set ↔ _
  rw [View.set_slice_whole, Rect.mem_set_unit]
  exact Iff.rfl

/-- Row `r` of the result lies in the block of point `r / 5000`. -/
theorem cover (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨e0, e1, e2, e3, e4, e5, e6, e7⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 40 ≤ (i 1).val ∧ (i 1).val < win3_3.index t (1 : Fin 2) * 40 + 40; rw [e7]; omega

/-- The result array after the region is that product for the arrays the region was entered with. -/
theorem result (c : Dev nD) : (dat3 V c).arrAt 3 cfg3.N = similarity V c :=
  (dat3 V c).arrAt_eq_of_cover 3 (similarity V c) (fun t _ => flushed_eq V c t) (cover)

end Cert.KernelIdeal.Cosine

end
-- ==== Proof.StageF.lean ====
/-
  The result. The fourth region leaves in the result buffer the product of the unit rows of the aggregated second
  layer plus its bias by the unit class embeddings. The reference forms the same unit rows — the bias spread over
  the rows, each row's sum of squares from zero, its square root, the larger of that and the clamp spread back over
  the row, the quotient — and multiplies them by the same class array: the two results are one array.
-/
import proofs.«150993_j24180665876742_1_alg».proof.Proof.StageE
import proofs.«150993_j24180665876742_1_alg».proof.Proof.Cosine
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

variable (m : (ℓ : Loc nD τ sig) → Buf (Elt Ideal) ℓ) (ρ : Dev nD → PrngReg) (c : Dev nD)

/-- Unit rows from either description: if `h` is the biased array and `n` divides every entry of `h` by the larger of
    its row's norm — the square root of the row's squares summed from zero — and the clamp, then `n` is the array of
    unit rows. -/
theorem unitRows_eq (a : FVec Ideal S100000x128 .f32) (b : FVec Ideal S1x128 .f32) (h : FVec Ideal S100000x128 .f32)
    (n : FVec Ideal ⟨2, ![100000, 128]⟩ .f32)
    (hab : ∀ (r : Fin 100000) (k : Fin 128), (h (ix2 r k) : EReal) = Cert.KernelIdeal.Cosine.biasedOf a b r k)
    (hn : ∀ (r : Fin 100000) (k : Fin 128), (n (ix2 r k) : EReal)
      = Ideal.div (h (ix2 r k)) (max (Ideal.sqrt (0 + ∑ k' : Fin 128, (h (ix2 r k') : EReal) * h (ix2 r k'))) (Ideal.ofBits .f32 0x322BCC77#32))) :
    Cert.KernelIdeal.Cosine.unitRowsOf a b = n := by
  funext i
  obtain ⟨r, k, rfl⟩ : ∃ (r : Fin 100000) (k : Fin 128), i = ix2 r k := ⟨i 0, i 1, eq_ix2 i⟩
  rw [hn]
  show Cert.KernelIdeal.Cosine.unitRow (Cert.KernelIdeal.Cosine.biasedOf a b r) k = _
  unfold Cert.KernelIdeal.Cosine.unitRow
  simp only [hab, zero_add]

/-- The reference's biased second layer at row `r`, column `k`. -/
theorem biased_eq (r : Fin 100000) (k : Fin 128) :
    (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r k)
      = Cert.KernelIdeal.Cosine.biasedOf (Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (W10 m ρ c (Proc.devRef .tc main_v66)) r k := by
  have hidx : Cert.ReferenceIdeal.Read.idx_main_v85 (Cert.ReferenceIdeal.Read.idx_main_v86 (ix2 r k)) = ix1 k :=
    funext fun a => by match a with | ⟨0, _⟩ => rfl
  rw [Cert.ReferenceIdeal.Read.val_main_v87_apply, Cert.ReferenceIdeal.Read.val_main_v86_apply, Cert.ReferenceIdeal.Read.val_main_v85_apply, hidx]
  unfold Cert.KernelIdeal.Cosine.biasedOf
  rw [entry4_bias]
  rfl

/-- The reference's normalized second layer at row `r`, column `k`: the biased entry over the larger of the row's norm
    and the clamp. -/
theorem normalized_apply (r : Fin 100000) (k : Fin 128) :
    Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r k)
      = Ideal.div ((Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r k))
          (max (Ideal.sqrt (0 + ∑ k' : Fin 128, ((Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r k') : EReal) * (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r k')))
            (Ideal.ofBits .f32 0x322BCC77#32)) := by
  have hrow : ∀ k' : Fin 128, Cert.ReferenceIdeal.Read.idx_main_call3_v1 (Cert.ReferenceIdeal.Read.idx_main_call3_v2 (Cert.ReferenceIdeal.Read.idx_main_v94 (ix2 r k))) k' = ix2 r k' :=
    fun k' => funext fun a => by match a with | ⟨0, _⟩ => rfl | ⟨1, _⟩ => rfl
  rw [Cert.ReferenceIdeal.Read.val_main_v95_apply, Cert.ReferenceIdeal.Read.val_main_v94_apply, Cert.ReferenceIdeal.Read.val_main_v90_apply, Cert.ReferenceIdeal.Read.val_main_v88_apply,
    Cert.ReferenceIdeal.Read.val_main_call3_v2_apply, Cert.ReferenceIdeal.Read.val_main_call3_v1_apply, Cert.ReferenceIdeal.Read.val_main_v89_apply, Cert.ReferenceIdeal.Read.val_main_cst_20_apply,
    Cert.ReferenceIdeal.Read.val_main_call3_cst_apply]
  have hsum : (∑ k' : Fin 128, (Cert.ReferenceIdeal.Read.val_main_call3_v0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.ReferenceIdeal.Read.idx_main_call3_v1 (Cert.ReferenceIdeal.Read.idx_main_call3_v2 (Cert.ReferenceIdeal.Read.idx_main_v94 (ix2 r k))) k'))
      = ∑ k' : Fin 128, ((Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r k') : EReal) * (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r k') :=
    Finset.sum_congr rfl fun k' _ => (congrArg (Cert.ReferenceIdeal.Read.val_main_call3_v0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (hrow k')).trans
      (Cert.ReferenceIdeal.Read.val_main_call3_v0_apply (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r k'))
  rw [hsum]
  generalize (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) = h
  simp only [Ideal.hostDivf_def, Ideal.maximumf_def, Ideal.hostUnary_sqrt_def, Ideal.mulf_def, Ideal.ofBits_def,
    Ideal.ofBits_zero_f32]

/-- The reference's unit rows are the unit rows the fourth region multiplies. -/
theorem unit_eq : Cert.KernelIdeal.Cosine.unitRowsOf (Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (W10 m ρ c (Proc.devRef .tc main_v66))
    = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  unitRows_eq _ _ (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) _ (biased_eq m ρ c) (normalized_apply m c)

/-- The result buffer after the fourth region is the reference's result. -/
theorem exit4_result : W11 m ρ c (Proc.devRef .tc main_v67) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 3).trans ?_
  refine (Cert.KernelIdeal.Cosine.result (V10 m ρ) c).trans ?_
  show Cert.KernelIdeal.Cosine.similarityOf (W10 m ρ c (Proc.devRef .tc main_v59)) (W10 m ρ c (Proc.devRef .tc main_v66)) (W10 m ρ c (Proc.devRef .tc main_v65)) = _
  rw [entry4_agg, entry4_cls]
  unfold Cert.KernelIdeal.Cosine.similarityOf
  rw [unit_eq]
  rfl

end Cert.KernelIdeal.Whole

end
-- ==== Proof.lean ====
/-
  A two-layer graph convolution followed by a cosine-similarity classifier, computed by a program of four pipelined
  regions among host operations, against the same network written as one host program.

  Both programs build from the edge list the source and target index of every edge and self-loop, the in-degrees, their
  inverse square roots and the edge weights, by the same operations. Each layer multiplies the node features by a weight
  array, gathers the product's rows at the source indices, scales them by the edge weights and scatter-adds them at the
  target indices; the first layer then adds its bias and takes the maximum with zero, the second adds its bias. The
  classifier divides every node's row and every class embedding by the larger of its Euclidean norm and a clamp and
  multiplies the two arrays of unit vectors. The pipelined program tiles the two dense products, the bias-and-rectifier
  and the classifier over twenty blocks of 5000 rows; on the extended reals each block's product is the rows of the
  whole product, a narrowing of the operands to bf16 is the identity, and the vector unit's row sum is the host's, so
  region by region the pipelined program's buffers hold the reference's intermediate arrays, and the results agree.
  The operations and their order are the same on both sides: no law of arithmetic beyond the commutativity of a sum's
  terms is used, and finiteness of the inputs is not needed.
-/
import proofs.«150993_j24180665876742_1_alg».proof.Defs
import proofs.«150993_j24180665876742_1_alg».proof.Proof.Gen.Kernel
import proofs.«150993_j24180665876742_1_alg».proof.Proof.Gen.Kernel.Frame
import proofs.«150993_j24180665876742_1_alg».proof.Proof.Gen.KernelIdeal
import proofs.«150993_j24180665876742_1_alg».proof.Proof.Gen.KernelIdeal.Frame
import proofs.«150993_j24180665876742_1_alg».proof.Proof.Gen.ReferenceIdeal
import proofs.«150993_j24180665876742_1_alg».proof.Proof.Gen.Pre_finite_inputs
import proofs.«150993_j24180665876742_1_alg».proof.Proof.RefRun
import proofs.«150993_j24180665876742_1_alg».proof.Proof.RefRead
import proofs.«150993_j24180665876742_1_alg».proof.Proof.KRun
import proofs.«150993_j24180665876742_1_alg».proof.Proof.StageF
import Idealize.ShloMosaic.Adequacy
import Idealize.ShloMosaic.Init

noncomputable section

namespace Cert.Proof

open Idealize.ShloMosaic Idealize.ShloMosaic.TcCoe Idealize.SL.Sem

/-- The word-level program runs and gives its arguments back. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the program on the extended reals rewrote no operation. -/
theorem preserves : Cert.preserves_Kernel_KernelIdeal := trivial

/-- From memories that agree on the arguments both programs end with the reference's last stage of the arguments in
    their result buffers. -/
theorem algebraic : Cert.algebraic_KernelIdeal_ReferenceIdeal := by
  intro m ρ m' ρ' _ hagree
  refine ⟨fun c => Cert.KernelIdeal.Gen.W11 m ρ c (Proc.devRef .tc Cert.KernelIdeal.main_v67),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, (hagree c).1, (hagree c).2.1, (hagree c).2.2.1, (hagree c).2.2.2.1,
    (hagree c).2.2.2.2.1, (hagree c).2.2.2.2.2.1, (hagree c).2.2.2.2.2.2]
  exact (Cert.KernelIdeal.Whole.exit4_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
